-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1250000 : Shape := ⟨1, ![1250000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x64 .f32) (main_arg1 : IVec S1250000 32) (main_arg2 : IVec S1250000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S50000x64 : Shape := ⟨2, ![50000, 64]⟩
abbrev S1250000 : Shape := ⟨1, ![1250000]⟩
abbrev S64x64 : Shape := ⟨2, ![64, 64]⟩
abbrev S64 : Shape := ⟨1, ![64]⟩
abbrev S1x64 : Shape := ⟨2, ![1, 64]⟩
abbrev S10000x64 : Shape := ⟨2, ![10000, 64]⟩
abbrev S_ : Shape := ⟨0, ![]⟩
abbrev S1250000x1 : Shape := ⟨2, ![1250000, 1]⟩
abbrev S1250000x64 : Shape := ⟨2, ![1250000, 64]⟩

abbrev nBuf : Space → Nat
  | .hbm => 30
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S1250000, .i32⟩
  | .hbm, ⟨2, _⟩ => ⟨S1250000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x64, .f32⟩
  | .hbm, ⟨12, _⟩ => ⟨S1x64, .f32⟩
  | .hbm, ⟨13, _⟩ => ⟨S50000x64, .f32⟩
  | .hbm, ⟨14, _⟩ => ⟨S_, .i32⟩
  | .hbm, ⟨15, _⟩ => ⟨S1250000, .i32⟩
  | .hbm, ⟨16, _⟩ => ⟨S1250000, .i1⟩
  | .hbm, ⟨17, _⟩ => ⟨S_, .i32⟩
  | .hbm, ⟨18, _⟩ => ⟨S1250000, .i32⟩
  | .hbm, ⟨19, _⟩ => ⟨S1250000, .i32⟩
  | .hbm, ⟨20, _⟩ => ⟨S1250000, .i32⟩
  | .hbm, ⟨21, _⟩ => ⟨S1250000x1, .i32⟩
  | .hbm, ⟨22, _⟩ => ⟨S1250000x64, .f32⟩
  | .hbm, ⟨23, _⟩ => ⟨S_, .f32⟩
  | .hbm, ⟨24, _⟩ => ⟨S50000x64, .f32⟩
  | .hbm, ⟨25, _⟩ => ⟨S1250000x1, .i32⟩
  | .hbm, ⟨26, _⟩ => ⟨S50000x64, .f32⟩
  | .hbm, ⟨27, _⟩ => ⟨S1x64, .f32⟩
  | .hbm, ⟨28, _⟩ => ⟨S1x64, .f32⟩
  | .hbm, ⟨29, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S50000x64 : S_.BroadcastsInDim S50000x64 (![] : Fin 0 → Fin S50000x64.rank)
  shapeCasts_S10000x64_S10000x64 : S10000x64.ShapeCasts S10000x64
  dot_S10000x64_S64x64_S10000x64_1_0_0_1_n_n_wf : DotDims.WF S10000x64 S64x64 S10000x64 [1] [0] [0] [1] [] []
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S1250000 : Shape := ⟨1, ![1250000]⟩
abbrev S64x64 : Shape := ⟨2, ![64, 64]⟩
abbrev S64 : Shape := ⟨1, ![64]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩

abbrev nBuf : Space → Nat
  | .hbm => 52
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1250000, .i32⟩
  | .hbm, ⟨2, _⟩ => ⟨S1250000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S1250000, .i32⟩
  | .hbm, ⟨13, _⟩ => ⟨S1250000, .i1⟩
  | .hbm, ⟨14, _⟩ => ⟨S_, .i32⟩
  | .hbm, ⟨15, _⟩ => ⟨S1250000, .i32⟩
  | .hbm, ⟨16, _⟩ => ⟨S1250000, .i32⟩
  | .hbm, ⟨17, _⟩ => ⟨S1250000, .i32⟩
  | .hbm, ⟨18, _⟩ => ⟨S1250000x1, .i32⟩
  | .hbm, ⟨19, _⟩ => ⟨S1250000x64, .f32⟩
  | .hbm, ⟨20, _⟩ => ⟨S1250000x64, .f32⟩
  | .hbm, ⟨21, _⟩ => ⟨S1x64, .f32⟩
  | .hbm, ⟨22, _⟩ => ⟨S1250000x64, .f32⟩
  | .hbm, ⟨23, _⟩ => ⟨S1250000x64, .f32⟩
  | .hbm, ⟨24, _⟩ => ⟨S_, .f32⟩
  | .hbm, ⟨25, _⟩ => ⟨S1250000x64, .f32⟩
  | .hbm, ⟨26, _⟩ => ⟨S1250000x64, .f32⟩
  | .hbm, ⟨27, _⟩ => ⟨S1250000x64, .f32⟩
  | .hbm, ⟨28, _⟩ => ⟨S1x64, .f32⟩
  | .hbm, ⟨29, _⟩ => ⟨S1250000x64, .f32⟩
  | .hbm, ⟨30, _⟩ => ⟨S1250000x64, .f32⟩
  | .hbm, ⟨31, _⟩ => ⟨S_, .f32⟩
  | .hbm, ⟨32, _⟩ => ⟨S1250000x64, .f32⟩
  | .hbm, ⟨33, _⟩ => ⟨S1250000x64, .f32⟩
  | .hbm, ⟨34, _⟩ => ⟨S_, .f32⟩
  | .hbm, ⟨35, _⟩ => ⟨S50000x64, .f32⟩
  | .hbm, ⟨36, _⟩ => ⟨S1250000x1, .i32⟩
  | .hbm, ⟨37, _⟩ => ⟨S50000x64, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S50000x64, .f32⟩
  | .hbm, ⟨42, _⟩ => ⟨S_, .f32⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S1x64, .f32⟩
  | .hbm, ⟨47, _⟩ => ⟨S50000x64, .f32⟩
  | .hbm, ⟨48, _⟩ => ⟨S50000x64, .f32⟩
  | .hbm, ⟨49, _⟩ => ⟨S_, .f32⟩
  | .hbm, ⟨50, _⟩ => ⟨S50000x64, .f32⟩
  | .hbm, ⟨51, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_cst : Ref sig .tc := ⟨.hbm, 24, rfl⟩
abbrev main_call0_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call1_cst : Ref sig .tc := ⟨.hbm, 31, rfl⟩
abbrev main_call1_v0 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call2_cst : Ref sig .tc := ⟨.hbm, 42, rfl⟩
abbrev main_call2_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call3_cst : Ref sig .tc := ⟨.hbm, 49, rfl⟩
abbrev main_call3_v0 : Ref sig .tc := ⟨.hbm, 50, rfl⟩
abbrev main_v29 : Ref sig .tc := ⟨.hbm, 51, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S64_S1x64_1 : S64.BroadcastsInDim S1x64 (![1] : Fin 1 → Fin S1x64.rank)
  bcast_S1x64_S1250000x64_0_1 : S1x64.BroadcastsInDim S1250000x64 (![0, 1] : Fin 2 → Fin S1250000x64.rank)
  bcast_S_S1250000x64 : S_.BroadcastsInDim S1250000x64 (![] : Fin 0 → Fin S1250000x64.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  gather_S50000x64_S1250000x1_S1250000x64_1_0_n_n_0_1_164_wf : GatherDims.WF S50000x64 S1250000x1 S1250000x64 [1] [0] [] [0] [] 1 ![1, 64]
  dot_S1250000x64_S64x64_S1250000x64_1_0_0_1_n_n_wf : DotDims.WF S1250000x64 S64x64 S1250000x64 [1] [0] [0] [1] [] []
  scatter_S50000x64_S1250000x1_S1250000x64_1_0_0_1_wf : ScatterDims.WF S50000x64 S1250000x1 S1250000x64 [1] [0] [0] 1
  dot_S50000x64_S64x64_S50000x64_1_0_0_1_n_n_wf : DotDims.WF S50000x64 S64x64 S50000x64 [1] [0] [0] [1] [] []

variable [Facts₀]

def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def dot_S1250000x64_S64x64_S1250000x64_1_0_0_1_n_n : DotDims S1250000x64 S64x64 S1250000x64 where
  lhsContracting := [1]
  rhsContracting := [0]
  lhsNonContracting := [0]
  rhsNonContracting := [1]
  lhsBatch := []
  rhsBatch := []
  wf := dot_S1250000x64_S64x64_S1250000x64_1_0_0_1_n_n_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel's run with its result kept.

  The program is two grids of row blocks with stretches of host operations before and between them. Its buffer
  contents at each boundary form a fold from the launch memory: a host stretch applies its operations, a grid leaves
  its arrays at what its write-backs leave and every other buffer as it was. Every weakly fair execution terminates
  with every unscoped buffer at the last boundary's contents, so in particular the result buffer ends at the last
  boundary's contents for it, and each argument array ends as launched.
-/
import proofs.«107421_j42494406427359_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents and the arguments as launched. -/
theorem run_named : θ_run defs (onTc (τ := τ) (main (F := F))) ⟨m, fun _ => 0, ρ⟩ (fun r => ∀ c : Dev nD,
      r.2.mem ((c.tc : Thread nD τ).loc main_v15) = W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v15 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Named

end
-- ==== Proof.RowLayer.lean ====
/-
  A dense layer followed by ReLU, applied to every row of a matrix of extended reals.

  For a matrix x with 64 columns, a 64 by 64 weight matrix W and a bias b of length 64, the layer's entry (r, q) is
  max (sum over k < 64 of x (r, k) * W (k, q) + b q, 0). Entry (r, q) depends on x only through row r. So picking
  rows commutes with the layer: the layer of the matrix whose row e is row rho e of x is the matrix whose row e is
  row rho e of the layer of x. Taking a block of consecutive rows and gathering rows at arbitrary positions are both
  instances. No property of the extended reals is used: the two sides are the same expression.
-/
import Idealize.ShloMosaic.PureOps.Ideal
import Idealize.ShloMosaic.Lib.ValueIdx

noncomputable section

open scoped BigOperators

namespace Cert.RowLayer

open Idealize.ShloMosaic Idealize.ShloMosaic.ValueIdx

/-- A matrix of extended reals with R rows and C columns. -/
abbrev Mat (R C : Nat) : Type := (⟨2, ![R, C]⟩ : Shape).Idx → EReal
/-- A vector of extended reals of length C. -/
abbrev Row (C : Nat) : Type := (⟨1, ![C]⟩ : Shape).Idx → EReal

/-- The extended real the all-zero single-precision word denotes: the constant every ReLU compares with. -/
abbrev zero : EReal := Ideal.ofBits .f32 0x00000000#32

/-- One dense layer with ReLU on every row: entry (r, q) is max (sum_k x (r, k) * W (k, q) + b q, 0). -/
def layer {R : Nat} (x : Mat R 64) (W : Mat 64 64) (b : Row 64) : Mat R 64 :=
  fun i => max ((∑ k : Fin 64, x (ix2 (i 0) k) * W (ix2 k (i 1))) + b (ix1 (i 1))) zero

/-- The matrix whose row e is row rho e of x. -/
def pickRows {N R : Nat} (ρ : Fin R → Fin N) (x : Mat N 64) : Mat R 64 :=
  fun i => x (ix2 (ρ (i 0)) (i 1))

/-- Picking rows commutes with the layer, because an entry of the layer reads one row of its operand. -/
theorem pickRows_layer {N R : Nat} (ρ : Fin R → Fin N) (x : Mat N 64) (W : Mat 64 64) (b : Row 64) :
    pickRows ρ (layer x W b) = layer (pickRows ρ x) W b := rfl

/-- The two-layer network on every row. -/
def mlp {R : Nat} (x : Mat R 64) (W1 : Mat 64 64) (b1 : Row 64) (W2 : Mat 64 64) (b2 : Row 64) : Mat R 64 :=
  layer (layer x W1 b1) W2 b2

/-- Picking rows commutes with the two-layer network. -/
theorem pickRows_mlp {N R : Nat} (ρ : Fin R → Fin N) (x : Mat N 64) (W1 : Mat 64 64) (b1 : Row 64) (W2 : Mat 64 64)
    (b2 : Row 64) : pickRows ρ (mlp x W1 b1 W2 b2) = mlp (pickRows ρ x) W1 b1 W2 b2 := rfl

/-- The bias a kernel block carries as a 1 by 64 matrix, read as a vector of length 64. -/
def rowOfUnit (B : Mat 1 64) : Row 64 := fun i => B (ix2 0 (i 0))

end Cert.RowLayer

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.KernelLayer.lean ====
/-
  The kernel's dense stage is the row layer.

  In a kernel body a dense layer with ReLU is a matrix-unit product of an [R, 64] block with a [64, 64] weight
  matrix into a zero accumulator, the bias block [1, 64] broadcast to [R, 64], a sum, and a maximum with the splat
  of zero. The operands of the product are narrowed to bf16 first, which over the extended reals is the identity.
  Read at an entry (r, q) this is max (sum_k x (r, k) * W (k, q) + B (0, q), 0): the row layer, with the bias block
  read as a vector. The number of rows R is arbitrary.
-/
import proofs.«107421_j42494406427359_2_alg».proof.Proof.RowLayer
import proofs.«107421_j42494406427359_2_alg».proof.Proof.LibMatmulPlain
import Idealize.ShloMosaic.Lib.Pipeline.Value

noncomputable section

open scoped BigOperators

namespace Cert.RowLayer

open Idealize.ShloMosaic Idealize.ShloMosaic.ValueIdx

/-- The matrix unit's product, bias, and ReLU, as one row layer. The operands may be of any float format. -/
theorem kernel_layer {R : Nat} {φ₁ φ₂ : FTy} (D : DotDims ⟨2, ![R, 64]⟩ ⟨2, ![64, 64]⟩ ⟨2, ![R, 64]⟩)
    (hD : D = DotDims.plain R 64 64) (hb : (⟨2, ![1, 64]⟩ : Shape).Broadcasts ⟨2, ![R, 64]⟩)
    (X : FVec Ideal ⟨2, ![R, 64]⟩ φ₁) (W : FVec Ideal ⟨2, ![64, 64]⟩ φ₂) (B : FVec Ideal ⟨2, ![1, 64]⟩ .f32) :
    maximumf (addf (matmul D none X W (constant (F := Ideal) ⟨2, ![R, 64]⟩ .f32 0x00000000#32))
        (broadcastTo ⟨2, ![R, 64]⟩ B hb))
      (broadcast ⟨2, ![R, 64]⟩ (Scalar.ofBits (F := Ideal) .f32 0x00000000#32))
    = layer X W (rowOfUnit B) := by
  subst hD
  funext i
  show max (matmul (DotDims.plain R 64 64) none X W (constant (F := Ideal) ⟨2, ![R, 64]⟩ .f32 0x00000000#32) i
      + broadcastTo ⟨2, ![R, 64]⟩ B hb i) (Scalar.ofBits (F := Ideal) .f32 0x00000000#32) = _
  refine congrArg₂ max (congrArg₂ (· + ·) (MatmulPlain.matmul_zero_apply none X W i) ?_) rfl
  refine broadcastTo_apply B hb i (ix2 (0 : Fin 1) (i 1 : Fin 64)) (fun a => ?_)
  match a with
  | ⟨0, _⟩ => show 0 = if (1 : Nat) = 1 then 0 else (i 0).val; rw [if_pos rfl]
  | ⟨1, _⟩ => show (i 1).val = if (64 : Nat) = 1 then 0 else (i 1).val; rw [if_neg (by decide)]

end Cert.RowLayer

end
-- ==== Proof.KernelBody.lean ====
/-
  What each kernel body stores, as a function of the blocks it loads.

  Both bodies compute the same thing: from a block x of rows, two weight matrices and two bias blocks [1, 64] they
  store relu (relu (x W1 + b1) W2 + b2), every product taken after narrowing its operands to bf16 and every
  identity shape cast dropped. Over the extended reals that is the two-layer network applied to every row of x.
-/
import proofs.«107421_j42494406427359_2_alg».proof.Proof.Gen.KernelIdeal.Skeleton
import proofs.«107421_j42494406427359_2_alg».proof.Proof.KernelLayer

noncomputable section

namespace Cert.KernelIdeal.Body

open Cert.KernelIdeal Cert.KernelIdeal.Gen Cert.RowLayer
open Idealize.ShloMosaic Idealize.ShloMosaic.ValueIdx

/-- The first grid's body stores the two-layer network of its row block. -/
theorem pay0_eq (x0 : Vec Ideal S10000x64 .f32) (x1 : Vec Ideal S64x64 .f32) (x2 : Vec Ideal S1x64 .f32)
    (x3 : Vec Ideal S64x64 .f32) (x4 : Vec Ideal S1x64 .f32) :
    k0_pay1 (F := Ideal) x0 x1 x2 x3 x4 = mlp x0 x1 (rowOfUnit x2) x3 (rowOfUnit x4) := by
  unfold k0_pay1 mlp
  simp only [shapeCast_self]
  refine (kernel_layer dot_S10000x64_S64x64_S10000x64_1_0_0_1_n_n rfl broadcasts_S1x64_S10000x64 _ _ x4).trans ?_
  refine congrArg (fun z : Mat 10000 64 => layer z x3 (rowOfUnit x4)) ?_
  exact kernel_layer dot_S10000x64_S64x64_S10000x64_1_0_0_1_n_n rfl broadcasts_S1x64_S10000x64 _ _ x2

/-- The second grid's body stores the two-layer network of its row block. -/
theorem pay1_eq (x0 : Vec Ideal S10000x64 .f32) (x1 : Vec Ideal S64x64 .f32) (x2 : Vec Ideal S1x64 .f32)
    (x3 : Vec Ideal S64x64 .f32) (x4 : Vec Ideal S1x64 .f32) :
    k1_pay1 (F := Ideal) x0 x1 x2 x3 x4 = mlp x0 x1 (rowOfUnit x2) x3 (rowOfUnit x4) := by
  unfold k1_pay1 mlp
  simp only [shapeCast_self]
  refine (kernel_layer dot_S10000x64_S64x64_S10000x64_1_0_0_1_n_n rfl broadcasts_S1x64_S10000x64 _ _ x4).trans ?_
  refine congrArg (fun z : Mat 10000 64 => layer z x3 (rowOfUnit x4)) ?_
  exact kernel_layer dot_S10000x64_S64x64_S10000x64_1_0_0_1_n_n rfl broadcasts_S1x64_S10000x64 _ _ x2

end Cert.KernelIdeal.Body

end
-- ==== Proof.KernelBlocks.lean ====
/-
  Each grid's output array as one function of the arrays the grid finds.

  A grid has five points; point t loads rows t * 10000 .. t * 10000 + 9999 of its row array together with the
  whole weight matrices and bias blocks, and writes back the same rows of its output array. The body stores the
  two-layer network of the loaded rows, and the network acts on each row separately, so what point t writes back is
  block t of the network of the whole row array. The five blocks tile the 50000 rows, so the output array ends as
  the network of the whole row array. This holds for any contents the grid is entered with.
-/
import proofs.«107421_j42494406427359_2_alg».proof.Proof.Gen.KernelIdeal.Frame
import proofs.«107421_j42494406427359_2_alg».proof.Proof.KernelBody
import Idealize.ShloMosaic.Lib.Pipeline.Value

set_option maxRecDepth 16384

noncomputable section

namespace Cert.KernelIdeal.Blocks

open Cert.KernelIdeal Cert.KernelIdeal.Gen Cert.RowLayer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Grid 0 -/

/-- The array row that row r of block t is: blocks of 10000 consecutive rows. -/
def rowAt0 (t : Fin cfg0.N) (r : Fin 10000) : Fin 50000 :=
  ⟨t.val * 10000 + r.val, by have h := t.isLt; have hN : cfg0.N = 5 := N_0; omega⟩

/-- The printed index maps over the grid: the row blocks move with the point, the weights and biases stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the grid's output array ends holding: the two-layer network of the row array, with the weights and the
    bias blocks as the grid finds them. -/
def G0 (c : Dev nD) : S50000x64.Idx → Elt Ideal .f32 :=
  mlp (V c main_arg0) (V c main_arg3) (rowOfUnit (V c main_v0)) (V c main_arg5) (rowOfUnit (V c main_v1))

/-- The row block at point t is rows t * 10000 .. t * 10000 + 9999 of the row array. -/
theorem iblk0_0_eq (c : Dev nD) (t : Fin cfg0.N) :
    (iblk0 V c 0 t : S10000x64.Idx → Elt Ideal .f32) = pickRows (rowAt0 t) (V c main_arg0) := by
  obtain ⟨e0, e1, -⟩ := idx_facts0 t
  funext y
  show V c main_arg0 (((cfg0.win 0).blk t).view.emb y) = V c main_arg0 (ix2 (rowAt0 t (y 0)) (y 1))
  refine congrArg (V c main_arg0) (funext fun a => Fin.ext ?_)
  match a with
  | ⟨0, _⟩ => show win0_0.index t (0 : Fin 2) * 10000 + 1 * (y 0).val = t.val * 10000 + (y 0).val; omega
  | ⟨1, _⟩ => show win0_0.index t (1 : Fin 2) * 64 + 1 * (y 1).val = (y 1).val; omega

/-- A weight window's block is the whole weight matrix at every point. -/
theorem iblk0_1_eq (c : Dev nD) (t : Fin cfg0.N) :
    (iblk0 V c 1 t : S64x64.Idx → Elt Ideal .f32) = V c main_arg3 := by
  obtain ⟨-, -, e0, e1, -⟩ := idx_facts0 t
  funext y
  show V c main_arg3 (((cfg0.win 1).blk t).view.emb y) = V c main_arg3 y
  refine congrArg (V c main_arg3) (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega
theorem iblk0_2_eq (c : Dev nD) (t : Fin cfg0.N) :
    (iblk0 V c 2 t : S1x64.Idx → Elt Ideal .f32) = V c main_v0 := by
  obtain ⟨-, -, -, -, e0, e1, -⟩ := idx_facts0 t
  funext y
  show V c main_v0 (((cfg0.win 2).blk t).view.emb y) = V c main_v0 y
  refine congrArg (V c main_v0) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega
theorem iblk0_3_eq (c : Dev nD) (t : Fin cfg0.N) :
    (iblk0 V c 3 t : S64x64.Idx → Elt Ideal .f32) = V c main_arg5 := by
  obtain ⟨-, -, -, -, -, -, e0, e1, -⟩ := idx_facts0 t
  funext y
  show V c main_arg5 (((cfg0.win 3).blk t).view.emb y) = V c main_arg5 y
  refine congrArg (V c main_arg5) (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega
theorem iblk0_4_eq (c : Dev nD) (t : Fin cfg0.N) :
    (iblk0 V c 4 t : S1x64.Idx → Elt Ideal .f32) = V c main_v1 := by
  obtain ⟨-, -, -, -, -, -, -, -, e0, e1, -⟩ := idx_facts0 t
  funext y
  show V c main_v1 (((cfg0.win 4).blk t).view.emb y) = V c main_v1 y
  refine congrArg (V c main_v1) (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- What point t writes back is block t of the network of the whole row array: the network acts on each row
    separately, so the network of a block of rows is that block of the network. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  rw [Body.pay0_eq, iblk0_0_eq, iblk0_1_eq, iblk0_2_eq, iblk0_3_eq, iblk0_4_eq, ← pickRows_mlp]
  obtain ⟨-, -, -, -, -, -, -, -, -, -, e0, e1⟩ := idx_facts0 t
  funext y
  show G0 V c (ix2 (rowAt0 t (y 0)) (y 1)) = G0 V c (((cfg0.win 5).blk t).view.emb y)
  refine congrArg (G0 V c) (funext fun a => Fin.ext ?_)
  match a with
  | ⟨0, _⟩ => show t.val * 10000 + (y 0).val = win0_5.index t (0 : Fin 2) * 10000 + 1 * (y 0).val; omega
  | ⟨1, _⟩ => show (y 1).val = win0_5.index t (1 : Fin 2) * 64 + 1 * (y 1).val; omega

/-- An index of the output array is in point t's block iff each coordinate is in the block's range on its axis. -/
theorem mem_blk0 (t : Fin cfg0.N) (i : S50000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v2).slice (win0_5.rect t)).set ↔ _
  rw [View.set_slice_whole, Rect.mem_set_unit]
  exact Iff.rfl

/-- Every row of the output array is in the block of the point row / 10000. -/
theorem cover0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 5 := N_0
  refine ⟨⟨(i 0).val / 10000, by omega⟩, flush0_5 _, ?_⟩
  obtain ⟨-, -, -, -, -, -, -, -, -, -, e0, e1⟩ := idx_facts0 ⟨(i 0).val / 10000, by omega⟩
  rw [mem_blk0]
  intro a
  match a with
  | ⟨0, _⟩ =>
    show win0_5.index ⟨(i 0).val / 10000, _⟩ (0 : Fin 2) * 10000 ≤ (i 0).val
      ∧ (i 0).val < win0_5.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win0_5.index ⟨(i 0).val / 10000, _⟩ (1 : Fin 2) * 64 ≤ (i 1).val
      ∧ (i 1).val < win0_5.index ⟨(i 0).val / 10000, _⟩ (1 : Fin 2) * 64 + 64
    rw [e1]; omega

/-- The grid's output array after its last point: the network of the whole row array. -/
theorem final0 (c : Dev nD) : (dat0 V c).arrAt 5 cfg0.N = G0 V c :=
  (dat0 V c).arrAt_eq_of_cover 5 (G0 V c) (fun t _ => flushed0_eq V c t) (cover0)

/-! ## Grid 1 -/

/-- The array row that row r of block t is: blocks of 10000 consecutive rows. -/
def rowAt1 (t : Fin cfg1.N) (r : Fin 10000) : Fin 50000 :=
  ⟨t.val * 10000 + r.val, by have h := t.isLt; have hN : cfg1.N = 5 := N_1; omega⟩

/-- The printed index maps over the grid: the row blocks move with the point, the weights and biases stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the grid's output array ends holding: the two-layer network of the row array, with the weights and the
    bias blocks as the grid finds them. -/
def G1 (c : Dev nD) : S50000x64.Idx → Elt Ideal .f32 :=
  mlp (V c main_v12) (V c main_arg7) (rowOfUnit (V c main_v13)) (V c main_arg9) (rowOfUnit (V c main_v14))

/-- The row block at point t is rows t * 10000 .. t * 10000 + 9999 of the row array. -/
theorem iblk1_0_eq (c : Dev nD) (t : Fin cfg1.N) :
    (iblk1 V c 0 t : S10000x64.Idx → Elt Ideal .f32) = pickRows (rowAt1 t) (V c main_v12) := by
  obtain ⟨e0, e1, -⟩ := idx_facts1 t
  funext y
  show V c main_v12 (((cfg1.win 0).blk t).view.emb y) = V c main_v12 (ix2 (rowAt1 t (y 0)) (y 1))
  refine congrArg (V c main_v12) (funext fun a => Fin.ext ?_)
  match a with
  | ⟨0, _⟩ => show win1_0.index t (0 : Fin 2) * 10000 + 1 * (y 0).val = t.val * 10000 + (y 0).val; omega
  | ⟨1, _⟩ => show win1_0.index t (1 : Fin 2) * 64 + 1 * (y 1).val = (y 1).val; omega

/-- A weight window's block is the whole weight matrix at every point. -/
theorem iblk1_1_eq (c : Dev nD) (t : Fin cfg1.N) :
    (iblk1 V c 1 t : S64x64.Idx → Elt Ideal .f32) = V c main_arg7 := by
  obtain ⟨-, -, e0, e1, -⟩ := idx_facts1 t
  funext y
  show V c main_arg7 (((cfg1.win 1).blk t).view.emb y) = V c main_arg7 y
  refine congrArg (V c main_arg7) (funext fun a => Fin.ext ?_)
  match a with
  | ⟨0, _⟩ => show win1_1.index t (0 : Fin 2) * 64 + 1 * (y 0).val = (y 0).val; omega
  | ⟨1, _⟩ => show win1_1.index t (1 : Fin 2) * 64 + 1 * (y 1).val = (y 1).val; omega
theorem iblk1_2_eq (c : Dev nD) (t : Fin cfg1.N) :
    (iblk1 V c 2 t : S1x64.Idx → Elt Ideal .f32) = V c main_v13 := by
  obtain ⟨-, -, -, -, e0, e1, -⟩ := idx_facts1 t
  funext y
  show V c main_v13 (((cfg1.win 2).blk t).view.emb y) = V c main_v13 y
  refine congrArg (V c main_v13) (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega
theorem iblk1_3_eq (c : Dev nD) (t : Fin cfg1.N) :
    (iblk1 V c 3 t : S64x64.Idx → Elt Ideal .f32) = V c main_arg9 := by
  obtain ⟨-, -, -, -, -, -, e0, e1, -⟩ := idx_facts1 t
  funext y
  show V c main_arg9 (((cfg1.win 3).blk t).view.emb y) = V c main_arg9 y
  refine congrArg (V c main_arg9) (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega
theorem iblk1_4_eq (c : Dev nD) (t : Fin cfg1.N) :
    (iblk1 V c 4 t : S1x64.Idx → Elt Ideal .f32) = V c main_v14 := by
  obtain ⟨-, -, -, -, -, -, -, -, e0, e1, -⟩ := idx_facts1 t
  funext y
  show V c main_v14 (((cfg1.win 4).blk t).view.emb y) = V c main_v14 y
  refine congrArg (V c main_v14) (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- What point t writes back is block t of the network of the whole row array: the network acts on each row
    separately, so the network of a block of rows is that block of the network. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  rw [Body.pay1_eq, iblk1_0_eq, iblk1_1_eq, iblk1_2_eq, iblk1_3_eq, iblk1_4_eq, ← pickRows_mlp]
  obtain ⟨-, -, -, -, -, -, -, -, -, -, e0, e1⟩ := idx_facts1 t
  funext y
  show G1 V c (ix2 (rowAt1 t (y 0)) (y 1)) = G1 V c (((cfg1.win 5).blk t).view.emb y)
  refine congrArg (G1 V c) (funext fun a => Fin.ext ?_)
  match a with
  | ⟨0, _⟩ => show t.val * 10000 + (y 0).val = win1_5.index t (0 : Fin 2) * 10000 + 1 * (y 0).val; omega
  | ⟨1, _⟩ => show (y 1).val = win1_5.index t (1 : Fin 2) * 64 + 1 * (y 1).val; omega

/-- An index of the output array is in point t's block iff each coordinate is in the block's range on its axis. -/
theorem mem_blk1 (t : Fin cfg1.N) (i : S50000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v15).slice (win1_5.rect t)).set ↔ _
  rw [View.set_slice_whole, Rect.mem_set_unit]
  exact Iff.rfl

/-- Every row of the output array is in the block of the point row / 10000. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 5 := N_1
  refine ⟨⟨(i 0).val / 10000, by omega⟩, flush1_5 _, ?_⟩
  obtain ⟨-, -, -, -, -, -, -, -, -, -, e0, e1⟩ := idx_facts1 ⟨(i 0).val / 10000, by omega⟩
  rw [mem_blk1]
  intro a
  match a with
  | ⟨0, _⟩ =>
    show win1_5.index ⟨(i 0).val / 10000, _⟩ (0 : Fin 2) * 10000 ≤ (i 0).val
      ∧ (i 0).val < win1_5.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, _⟩ (1 : Fin 2) * 64 ≤ (i 1).val
      ∧ (i 1).val < win1_5.index ⟨(i 0).val / 10000, _⟩ (1 : Fin 2) * 64 + 64
    rw [e1]; omega

/-- The grid's output array after its last point: the network of the whole row array. -/
theorem final1 (c : Dev nD) : (dat1 V c).arrAt 5 cfg1.N = G1 V c :=
  (dat1 V c).arrAt_eq_of_cover 5 (G1 V c) (fun t _ => flushed1_eq V c t) (cover1)

end Cert.KernelIdeal.Blocks

end
-- ==== Proof.LibGatherRows.lean ====
/-
  A row gather read at an entry.

  What x[idx] of an [N, C] array x at a vector of R row numbers lowers to: a gather with offset axis 1, collapsed
  slice axis 0, start index map [0], the index vector on axis 1 of the start indices [R, 1], and slices of size
  [1, C]. Its entry (e, j) is x at row (the start index idx (e, 0), read as a signed integer and clamped into
  [0, N - 1]) and column j. So the result is x with rows picked by a function of the start indices alone; in
  particular a gather of this kind commutes with every operation that acts on each row separately. The extents
  N, R, C and the element type are arbitrary.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather, for an operand [N, C], start indices [R, 1] and a result [R, C]; their
    conditions are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row e reads: the start index, signed, clamped into [0, N - 1]. -/
def rowOf {N R w : Nat} (hN : 0 < N) (idx : IVec ⟨2, ![R, 1]⟩ w) (e : Fin R) : Fin N :=
  ⟨min (idx (ix2 e (0 : Fin 1))).toInt.toNat (N - 1), by omega⟩

/-- The row gather at (e, j): the operand at the clamped start row and column j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf hN idx e) j) := by
  unfold Host.gather
  congr 1
  funext a
  refine Fin.ext ?_
  match a with
  | ⟨0, _⟩ =>
    show (rowDims N R C wf).start (ix2 e j) idx 0 + (rowDims N R C wf).batchCoord (ix2 e j) 0
      + (rowDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e j) idx 1 + (rowDims N R C wf).batchCoord (ix2 e j) 1
      + (rowDims N R C wf).offCoord (ix2 e j) 1 = j.val
    rw [GatherDims.batchCoord_eq_zero _ _ _ List.not_mem_nil]
    unfold GatherDims.start
    rw [dif_neg (show (1 : Fin 2) ∉ (rowDims N R C wf).startIndexMap from
      (show (1 : Fin 2) ∉ ([0] : List (Fin 2)) by decide))]
    unfold GatherDims.offCoord
    rw [dif_pos (show (1 : Fin 2) ∈ (rowDims N R C wf).sKept from
      (GatherDims.mem_sKept _ _).mpr ⟨(show (1 : Fin 2) ∉ ([0] : List (Fin 2)) by decide), List.not_mem_nil⟩)]
    have hval : ∀ k : Fin 2, k = 1 → ((ix2 e j k : Fin _) : Nat) = j.val := by rintro _ rfl; rfl
    rw [hval _ (List.getElem_singleton _)]
    omega

/-- The whole result: the operand's rows picked by the clamped start indices. -/
theorem gather_rows {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) :
    Host.gather (rowDims N R C wf) x idx = fun i => x (ix2 (rowOf hN idx (i 0)) (i 1)) := by
  funext i
  obtain ⟨e, j, rfl⟩ : ∃ (e : Fin R) (j : Fin C), i = ix2 e j := ⟨i 0, i 1, eq_ix2 i⟩
  exact gather_rows_apply hN wf x idx e j

end Idealize.ShloMosaic.GatherRows

end
-- ==== Proof.Network.lean ====
/-
  The whole computation, and why the network may be applied before or after the gather.

  Given how rows are gathered (gat: from the 50000 node rows to the 1250000 edge rows) and how edge rows are summed
  at their destinations (agg: back to 50000 node rows), the computation is: gather, apply the message network to
  every edge row, sum at the destinations, apply the update network to every node row.

  The gather is a row gather: edge row e of the result is node row (clamped start index of e) of the operand. The
  network acts on each row separately. So gathering the network of the node rows is the network of the gathered
  rows: the message network may be applied once per node before the gather instead of once per edge after it.
-/
import proofs.«107421_j42494406427359_2_alg».proof.Proof.RowLayer
import proofs.«107421_j42494406427359_2_alg».proof.Proof.LibGatherRows

noncomputable section

namespace Cert.RowLayer

open Idealize.ShloMosaic Idealize.ShloMosaic.ValueIdx Idealize.ShloMosaic.GatherRows

/-- Gather, message network on every edge row, sum at the destinations, update network on every node row. -/
def network (gat : Mat 50000 64 → Mat 1250000 64) (agg : Mat 1250000 64 → Mat 50000 64) (y : Mat 50000 64)
    (W1 : Mat 64 64) (b1 : Row 64) (W2 : Mat 64 64) (b2 : Row 64) (U1 : Mat 64 64) (c1 : Row 64) (U2 : Mat 64 64)
    (c2 : Row 64) : Mat 50000 64 :=
  mlp (agg (mlp (gat y) W1 b1 W2 b2)) U1 c1 U2 c2

/-- A row gather of the network of x is the network of the row gather of x. -/
theorem gather_mlp {N R w : Nat} (hN : 0 < N)
    (wf : GatherDims.WF ⟨2, ![N, 64]⟩ ⟨2, ![R, 1]⟩ ⟨2, ![R, 64]⟩ [1] [0] [] [0] [] 1 ![1, 64])
    (x : Mat N 64) (idx : IVec ⟨2, ![R, 1]⟩ w) (W1 : Mat 64 64) (b1 : Row 64) (W2 : Mat 64 64) (b2 : Row 64) :
    Host.gather (rowDims N R 64 wf) (mlp x W1 b1 W2 b2) idx
      = mlp (Host.gather (rowDims N R 64 wf) x idx) W1 b1 W2 b2 := by
  rw [gather_rows hN wf, gather_rows hN wf]
  exact pickRows_mlp (rowOf hN idx) x W1 b1 W2 b2

end Cert.RowLayer

end
-- ==== Proof.KernelValue.lean ====
/-
  The idealized kernel's result as the whole computation.

  Reading the boundary contents back from the result buffer to the launch memory: the second grid leaves the update
  network of the rows it finds; those rows are the scatter-add, into zeros at the destinations, of the gather at the
  (wrapped) source indices of the first grid's output; the first grid leaves the message network of the node rows.
  The biases reach the grids reshaped from [64] to [1, 64], which read back as vectors are the biases. Finally the
  gather of the message network of the node rows is the message network of the gathered rows, because the gather
  picks whole rows and the network acts on each row separately.
-/
import proofs.«107421_j42494406427359_2_alg».proof.Proof.Gen.KernelIdeal.Frame
import proofs.«107421_j42494406427359_2_alg».proof.Proof.KernelBlocks
import proofs.«107421_j42494406427359_2_alg».proof.Proof.Network
import Idealize.ShloMosaic.Lib.StableHlo.Run
import Idealize.ShloMosaic.Lib.ValueLayout

set_option maxRecDepth 16384

noncomputable section

namespace Cert.KernelIdeal.KValue

open Cert.KernelIdeal Cert.KernelIdeal.Gen Cert.RowLayer
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The kernel's gather: negative source indices wrapped by 50000, then the row gather. -/
def gat (src : IVec S1250000 32) (x : Mat 50000 64) : Mat 1250000 64 :=
  Host.gather gather_S50000x64_S1250000x1_S1250000x64_1_0_n_n_0_1_164 x
    (broadcastInDim S1250000x1 ![0] bcast_S1250000_S1250000x1_0
      (select (cmpi .slt src (broadcastInDim S1250000 ![] bcast_S_S1250000 (constantI S_ 32 0#32)))
        (addi src (broadcastInDim S1250000 ![] bcast_S_S1250000 (constantI S_ 32 50000#32))) src))

/-- The kernel's sum at the destinations: a scatter-add of the edge rows into zeros. -/
def agg (dst : IVec S1250000 32) (u : Mat 1250000 64) : Mat 50000 64 :=
  Host.scatterAdd (F := Ideal) scatter_S50000x64_S1250000x1_S1250000x64_1_0_0_1
    (broadcastInDim S50000x64 ![] bcast_S_S50000x64 (constant (F := Ideal) S_ .f32 0x00000000#32))
    (broadcastInDim S1250000x1 ![0] bcast_S1250000_S1250000x1_0 dst) u

/-- The gather of the network of the node rows is the network of the gathered rows. -/
theorem gat_mlp (src : IVec S1250000 32) (x : Mat 50000 64) (W1 : Mat 64 64) (b1 : Row 64)
    (W2 : Mat 64 64) (b2 : Row 64) : gat src (mlp x W1 b1 W2 b2) = mlp (gat src x) W1 b1 W2 b2 := by
  unfold gat
  exact gather_mlp (N := 50000) (R := 1250000) (by decide)
    gather_S50000x64_S1250000x1_S1250000x64_1_0_n_n_0_1_164.wf x _ W1 b1 W2 b2

/-- A bias reshaped from [64] to [1, 64], read back as a vector, is the bias. -/
theorem rowOfUnit_reshape (b : (⟨S64, .f32⟩ : BufTy).Contents (Elt Ideal)) :
    rowOfUnit (shapeCast S1x64 b shapeCasts_S64_S1x64) = b := by
  funext i
  obtain ⟨q, rfl⟩ : ∃ q : Fin 64, i = ix1 q := ⟨i 0, eq_ix1 i⟩
  exact shapeCast_a_1a_apply b shapeCasts_S64_S1x64 0 q

/-! ## The first grid's entry contents: the launch memory, the two biases reshaped -/

theorem V1_main_arg0 (c : Dev nD) : V1 m ρ c main_arg0 = m ((c : Thread nD τ).loc main_arg0) := by
  show StableHlo.after hostOps0 (W0 m ρ c) (Proc.devRef .tc main_arg0) = _
  after_results
theorem V1_main_arg3 (c : Dev nD) : V1 m ρ c main_arg3 = m ((c : Thread nD τ).loc main_arg3) := by
  show StableHlo.after hostOps0 (W0 m ρ c) (Proc.devRef .tc main_arg3) = _
  after_results
theorem V1_main_arg5 (c : Dev nD) : V1 m ρ c main_arg5 = m ((c : Thread nD τ).loc main_arg5) := by
  show StableHlo.after hostOps0 (W0 m ρ c) (Proc.devRef .tc main_arg5) = _
  after_results
theorem V1_main_v0 (c : Dev nD) :
    (V1 m ρ c main_v0 : S1x64.Idx → Elt Ideal .f32) = shapeCast S1x64 (m ((c : Thread nD τ).loc main_arg4)) shapeCasts_S64_S1x64 := by
  show StableHlo.after hostOps0 (W0 m ρ c) (Proc.devRef .tc main_v0) = _
  after_results; rfl
theorem V1_main_v1 (c : Dev nD) :
    (V1 m ρ c main_v1 : S1x64.Idx → Elt Ideal .f32) = shapeCast S1x64 (m ((c : Thread nD τ).loc main_arg6)) shapeCasts_S64_S1x64 := by
  show StableHlo.after hostOps0 (W0 m ρ c) (Proc.devRef .tc main_v1) = _
  after_results; rfl

/-- The first grid's output array: the message network of the node rows. -/
theorem W2_main_v2 (c : Dev nD) :
    (W2 m ρ c (Proc.devRef .tc main_v2) : S50000x64.Idx → Elt Ideal .f32)
      = mlp (m ((c : Thread nD τ).loc main_arg0)) (m ((c : Thread nD τ).loc main_arg3)) (m ((c : Thread nD τ).loc main_arg4)) (m ((c : Thread nD τ).loc main_arg5)) (m ((c : Thread nD τ).loc main_arg6)) := by
  refine (W2_arr m ρ c 5).trans ((Blocks.final0 (V1 m ρ) c).trans ?_)
  unfold Blocks.G0
  rw [V1_main_arg0, V1_main_arg3, V1_main_v0, V1_main_arg5, V1_main_v1, rowOfUnit_reshape, rowOfUnit_reshape]

/-! ## What the first grid does not write is still the launch memory after it -/

theorem W2_main_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results
theorem W2_main_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results
theorem W2_main_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results
theorem W2_main_arg8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results
theorem W2_main_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results
theorem W2_main_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  after_results

/-! ## The second grid's entry contents -/

/-- Its row array: the edge rows gathered from the first grid's output, summed at their destinations. -/
theorem V3_main_v12 (c : Dev nD) :
    (V3 m ρ c main_v12 : S50000x64.Idx → Elt Ideal .f32)
      = agg (W2 m ρ c (Proc.devRef .tc main_arg2))
          (gat (W2 m ρ c (Proc.devRef .tc main_arg1)) (W2 m ρ c (Proc.devRef .tc main_v2))) := by
  show StableHlo.after hostOps1 (W2 m ρ c) (Proc.devRef .tc main_v12) = _
  after_results; rfl

theorem V3_main_arg7 (c : Dev nD) : V3 m ρ c main_arg7 = W2 m ρ c (Proc.devRef .tc main_arg7) := by
  show StableHlo.after hostOps1 (W2 m ρ c) (Proc.devRef .tc main_arg7) = _
  after_results
theorem V3_main_arg9 (c : Dev nD) : V3 m ρ c main_arg9 = W2 m ρ c (Proc.devRef .tc main_arg9) := by
  show StableHlo.after hostOps1 (W2 m ρ c) (Proc.devRef .tc main_arg9) = _
  after_results
theorem V3_main_v13 (c : Dev nD) :
    (V3 m ρ c main_v13 : S1x64.Idx → Elt Ideal .f32)
      = shapeCast S1x64 (W2 m ρ c (Proc.devRef .tc main_arg8)) shapeCasts_S64_S1x64 := by
  show StableHlo.after hostOps1 (W2 m ρ c) (Proc.devRef .tc main_v13) = _
  after_results; rfl
theorem V3_main_v14 (c : Dev nD) :
    (V3 m ρ c main_v14 : S1x64.Idx → Elt Ideal .f32)
      = shapeCast S1x64 (W2 m ρ c (Proc.devRef .tc main_arg10)) shapeCasts_S64_S1x64 := by
  show StableHlo.after hostOps1 (W2 m ρ c) (Proc.devRef .tc main_v14) = _
  after_results; rfl

/-! ## The result -/

/-- The result buffer's final contents are the whole computation of the launch memory's argument arrays. -/
theorem result_eq (c : Dev nD) :
    (W4 m ρ c (Proc.devRef .tc main_v15) : S50000x64.Idx → Elt Ideal .f32)
      = network (gat (m ((c : Thread nD τ).loc main_arg1))) (agg (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 5).trans ((Blocks.final1 (V3 m ρ) c).trans ?_)
  unfold Blocks.G1 network
  rw [V3_main_v12, V3_main_arg7, V3_main_v13, V3_main_arg9, V3_main_v14, W2_main_v2, W2_main_arg1, W2_main_arg2,
    W2_main_arg7, W2_main_arg8, W2_main_arg9, W2_main_arg10, rowOfUnit_reshape, rowOfUnit_reshape, gat_mlp]

end Cert.KernelIdeal.KValue

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«107421_j42494406427359_2_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.HostLayer.lean ====
/-
  The host's dense stage is the row layer.

  On the host a dense layer with ReLU is five operations: a plain matrix product of an [R, 64] matrix with a
  [64, 64] weight matrix, the bias of length 64 broadcast first to [1, 64] and then to [R, 64], a sum, the zero
  constant broadcast to [R, 64], and a maximum. Read at an entry (r, q) over the extended reals this is
  max (sum_k x (r, k) * W (k, q) + b q, 0): the row layer. The number of rows R is arbitrary.
-/
import proofs.«107421_j42494406427359_2_alg».proof.Proof.RowLayer
import proofs.«107421_j42494406427359_2_alg».proof.Proof.LibHostDotPlain
import Idealize.ShloMosaic.Lib.Pipeline.Value

noncomputable section

open scoped BigOperators

namespace Cert.RowLayer

open Idealize.ShloMosaic Idealize.ShloMosaic.ValueIdx

/-- The host's product, bias, and ReLU, as one row layer. -/
theorem host_layer {R : Nat} (D : DotDims ⟨2, ![R, 64]⟩ ⟨2, ![64, 64]⟩ ⟨2, ![R, 64]⟩) (hD : D = DotDims.plain R 64 64)
    (h1 : (⟨1, ![64]⟩ : Shape).BroadcastsInDim ⟨2, ![1, 64]⟩ ![1])
    (h2 : (⟨2, ![1, 64]⟩ : Shape).BroadcastsInDim ⟨2, ![R, 64]⟩ ![0, 1])
    (h0 : (⟨0, ![]⟩ : Shape).BroadcastsInDim ⟨2, ![R, 64]⟩ ![])
    (X : FVec Ideal ⟨2, ![R, 64]⟩ .f32) (W : FVec Ideal ⟨2, ![64, 64]⟩ .f32) (b : FVec Ideal ⟨1, ![64]⟩ .f32) :
    maximumf (addf (Host.dotGeneral (F := Ideal) D none X W)
        (broadcastInDim ⟨2, ![R, 64]⟩ ![0, 1] h2 (broadcastInDim ⟨2, ![1, 64]⟩ ![1] h1 b)))
      (broadcastInDim ⟨2, ![R, 64]⟩ ![] h0 (constant (F := Ideal) ⟨0, ![]⟩ .f32 0x00000000#32))
    = layer X W b := by
  subst hD
  funext i
  show max (Host.dotGeneral (F := Ideal) (DotDims.plain R 64 64) none X W i
      + broadcastInDim ⟨2, ![R, 64]⟩ ![0, 1] h2 (broadcastInDim ⟨2, ![1, 64]⟩ ![1] h1 b) i)
    (broadcastInDim ⟨2, ![R, 64]⟩ ![] h0 (constant (F := Ideal) ⟨0, ![]⟩ .f32 0x00000000#32) i) = _
  refine congrArg₂ max (congrArg₂ (· + ·) (HostDotPlain.dotGeneral_apply none X W i) ?_) ?_
  · refine (broadcastInDim_apply ![0, 1] h2 _ i (ix2 (0 : Fin 1) (i 1 : Fin 64)) (fun a => ?_)).trans
      (broadcastInDim_apply ![1] h1 b (ix2 (0 : Fin 1) (i 1 : Fin 64)) (ix1 (i 1 : Fin 64)) (fun a => ?_))
    · match a with
      | ⟨0, _⟩ => show 0 = if (1 : Nat) = 1 then 0 else (i 0).val; rw [if_pos rfl]
      | ⟨1, _⟩ => show (i 1).val = if (64 : Nat) = 1 then 0 else (i 1).val; rw [if_neg (by decide)]
    · match a with
      | ⟨0, _⟩ => show (i 1).val = if (64 : Nat) = 1 then 0 else (i 1).val; rw [if_neg (by decide)]
  · exact broadcastInDim_apply ![] h0 _ i ix0 (fun a => a.elim0)

end Cert.RowLayer

end
-- ==== Proof.RefValue.lean ====
/-
  The reference's result as the whole computation.

  The reference gathers the node rows at the (wrapped) source indices, applies the message network to every edge
  row as two host dense stages, sums the edge rows at their destinations by a scatter-add into zeros, and applies
  the update network to every node row as two more host dense stages. Each host dense stage is the row layer.
-/
import proofs.«107421_j42494406427359_2_alg».proof.Proof.Gen.ReferenceIdeal.Run
import proofs.«107421_j42494406427359_2_alg».proof.Proof.HostLayer
import proofs.«107421_j42494406427359_2_alg».proof.Proof.Network

noncomputable section

namespace Cert.ReferenceIdeal.RefValue

open Cert.ReferenceIdeal Cert.ReferenceIdeal.Gen Cert.RowLayer
open Idealize.ShloMosaic Idealize.ShloMosaic.ValueIdx

/-- The reference's gather: negative source indices wrapped by 50000, then the row gather. -/
def gat (src : IVec S1250000 32) (x : Mat 50000 64) : Mat 1250000 64 :=
  Host.gather gather_S50000x64_S1250000x1_S1250000x64_1_0_n_n_0_1_164 x
    (broadcastInDim S1250000x1 ![0] bcast_S1250000_S1250000x1_0
      (select (cmpi .slt src (broadcastInDim S1250000 ![] bcast_S_S1250000 (constantI S_ 32 0#32)))
        (addi src (broadcastInDim S1250000 ![] bcast_S_S1250000 (constantI S_ 32 50000#32))) src))

/-- The reference's sum at the destinations: a scatter-add of the edge rows into zeros. -/
def agg (dst : IVec S1250000 32) (u : Mat 1250000 64) : Mat 50000 64 :=
  Host.scatterAdd (F := Ideal) scatter_S50000x64_S1250000x1_S1250000x64_1_0_0_1
    (broadcastInDim S50000x64 ![] bcast_S_S50000x64 (constant (F := Ideal) S_ .f32 0x00000000#32))
    (broadcastInDim S1250000x1 ![0] bcast_S1250000_S1250000x1_0 dst) u

/-- The term the reference's run ends at is the whole computation of its arguments. -/
theorem result_eq (y : FVec Ideal S50000x64 .f32) (src dst : IVec S1250000 32)
    (W1 : FVec Ideal S64x64 .f32) (b1 : FVec Ideal S64 .f32) (W2 : FVec Ideal S64x64 .f32) (b2 : FVec Ideal S64 .f32)
    (U1 : FVec Ideal S64x64 .f32) (c1 : FVec Ideal S64 .f32) (U2 : FVec Ideal S64x64 .f32) (c2 : FVec Ideal S64 .f32) :
    maximumf (addf (Host.dotGeneral (F := Ideal) dot_S50000x64_S64x64_S50000x64_1_0_0_1_n_n none (maximumf (addf (Host.dotGeneral (F := Ideal) dot_S50000x64_S64x64_S50000x64_1_0_0_1_n_n none (Host.scatterAdd (F := Ideal) scatter_S50000x64_S1250000x1_S1250000x64_1_0_0_1 (broadcastInDim S50000x64 ![] bcast_S_S50000x64 (constant (F := Ideal) S_ .f32 0x00000000#32)) (broadcastInDim S1250000x1 ![0] bcast_S1250000_S1250000x1_0 dst) (maximumf (addf (Host.dotGeneral (F := Ideal) dot_S1250000x64_S64x64_S1250000x64_1_0_0_1_n_n none (maximumf (addf (Host.dotGeneral (F := Ideal) dot_S1250000x64_S64x64_S1250000x64_1_0_0_1_n_n none (Host.gather gather_S50000x64_S1250000x1_S1250000x64_1_0_n_n_0_1_164 y (broadcastInDim S1250000x1 ![0] bcast_S1250000_S1250000x1_0 (select (cmpi .slt src (broadcastInDim S1250000 ![] bcast_S_S1250000 (constantI S_ 32 0#32))) (addi src (broadcastInDim S1250000 ![] bcast_S_S1250000 (constantI S_ 32 50000#32))) src))) W1) (broadcastInDim S1250000x64 ![0, 1] bcast_S1x64_S1250000x64_0_1 (broadcastInDim S1x64 ![1] bcast_S64_S1x64_1 b1))) (broadcastInDim S1250000x64 ![] bcast_S_S1250000x64 (constant (F := Ideal) S_ .f32 0x00000000#32))) W2) (broadcastInDim S1250000x64 ![0, 1] bcast_S1x64_S1250000x64_0_1 (broadcastInDim S1x64 ![1] bcast_S64_S1x64_1 b2))) (broadcastInDim S1250000x64 ![] bcast_S_S1250000x64 (constant (F := Ideal) S_ .f32 0x00000000#32)))) U1) (broadcastInDim S50000x64 ![0, 1] bcast_S1x64_S50000x64_0_1 (broadcastInDim S1x64 ![1] bcast_S64_S1x64_1 c1))) (broadcastInDim S50000x64 ![] bcast_S_S50000x64 (constant (F := Ideal) S_ .f32 0x00000000#32))) U2) (broadcastInDim S50000x64 ![0, 1] bcast_S1x64_S50000x64_0_1 (broadcastInDim S1x64 ![1] bcast_S64_S1x64_1 c2))) (broadcastInDim S50000x64 ![] bcast_S_S50000x64 (constant (F := Ideal) S_ .f32 0x00000000#32))
    = network (gat src) (agg dst) y W1 b1 W2 b2 U1 c1 U2 c2 := by
  rw [host_layer dot_S1250000x64_S64x64_S1250000x64_1_0_0_1_n_n rfl bcast_S64_S1x64_1 bcast_S1x64_S1250000x64_0_1 bcast_S_S1250000x64,
    host_layer dot_S1250000x64_S64x64_S1250000x64_1_0_0_1_n_n rfl bcast_S64_S1x64_1 bcast_S1x64_S1250000x64_0_1 bcast_S_S1250000x64,
    host_layer dot_S50000x64_S64x64_S50000x64_1_0_0_1_n_n rfl bcast_S64_S1x64_1 bcast_S1x64_S50000x64_0_1 bcast_S_S50000x64,
    host_layer dot_S50000x64_S64x64_S50000x64_1_0_0_1_n_n rfl bcast_S64_S1x64_1 bcast_S1x64_S50000x64_0_1 bcast_S_S50000x64]
  rfl

end Cert.ReferenceIdeal.RefValue

end
-- ==== Proof.lean ====
/-
  Two programs compute h = g (S (f (y) gathered at src)) and h = g (S (f (y gathered at src))), where f and g are
  two-layer networks with ReLU applied to every row (message and update), the gather picks node rows at the source
  indices (negative ones wrapped, then clamped) and S sums edge rows at their destination nodes by a scatter-add
  into zeros. The kernel applies f once per node, on two grids of row blocks with bf16 matrix products, and gathers
  afterwards; the reference gathers first and applies f once per edge, on the host.

  Over the extended reals a change of float format is the identity and a matrix product is the sum of products in
  any grouping, so each program's dense stage is the same row layer, whose entry (r, q) reads row r of its operand
  only. A row gather of a row-wise function of x is that function of the row gather of x; this is the one law that
  joins the two sides, and it holds for every index array, so nothing is needed of the integer inputs. The two
  programs' gathers and scatter-adds are the same functions (the same dimension numbers), applied to equal
  operands. No distributivity or cancellation is used, so the finiteness of the inputs is not needed either.

  The frames of the two kernel programs are the generated ones; the reference's frame is its generated run with the
  result forgotten; the idealization rewrote nothing, so there is nothing to preserve.
-/
import proofs.«107421_j42494406427359_2_alg».proof.Defs
import proofs.«107421_j42494406427359_2_alg».proof.Proof.Gen.Kernel
import proofs.«107421_j42494406427359_2_alg».proof.Proof.Gen.Kernel.Skeleton
import proofs.«107421_j42494406427359_2_alg».proof.Proof.Gen.Kernel.Launch
import proofs.«107421_j42494406427359_2_alg».proof.Proof.Gen.Kernel.Points
import proofs.«107421_j42494406427359_2_alg».proof.Proof.Gen.Kernel.Frame
import proofs.«107421_j42494406427359_2_alg».proof.Proof.Gen.KernelIdeal
import proofs.«107421_j42494406427359_2_alg».proof.Proof.Gen.KernelIdeal.Skeleton
import proofs.«107421_j42494406427359_2_alg».proof.Proof.Gen.KernelIdeal.Launch
import proofs.«107421_j42494406427359_2_alg».proof.Proof.Gen.KernelIdeal.Points
import proofs.«107421_j42494406427359_2_alg».proof.Proof.Gen.KernelIdeal.Frame
import proofs.«107421_j42494406427359_2_alg».proof.Proof.Gen.ReferenceIdeal
import proofs.«107421_j42494406427359_2_alg».proof.Proof.Gen.Pre_finite_inputs
import proofs.«107421_j42494406427359_2_alg».proof.Proof.Gen.ReferenceIdeal.Run
import proofs.«107421_j42494406427359_2_alg».proof.Proof.Gen.ReferenceIdeal.Read
import proofs.«107421_j42494406427359_2_alg».proof.Proof.KernelRun
import proofs.«107421_j42494406427359_2_alg».proof.Proof.KernelValue
import proofs.«107421_j42494406427359_2_alg».proof.Proof.RefValue
import Idealize.ShloMosaic.Adequacy
import Idealize.ShloMosaic.Init

noncomputable section

namespace Cert.Proof

open Idealize.ShloMosaic Idealize.SL.Sem Cert.RowLayer

/-- The idealized kernel's run: the result buffer ends at the whole computation of the argument arrays, the
    arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v15)
          = network (Cert.KernelIdeal.KValue.gat (m ((c.tc : Thread Cert.KernelIdeal.nD Cert.KernelIdeal.τ).loc Cert.KernelIdeal.main_arg1))) (Cert.KernelIdeal.KValue.agg (m ((c.tc : Thread Cert.KernelIdeal.nD Cert.KernelIdeal.τ).loc Cert.KernelIdeal.main_arg2)))
              (m ((c.tc : Thread Cert.KernelIdeal.nD Cert.KernelIdeal.τ).loc Cert.KernelIdeal.main_arg0))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg8))
              (m ((c.tc : Thread Cert.KernelIdeal.nD Cert.KernelIdeal.τ).loc Cert.KernelIdeal.main_arg9))
              (m ((c.tc : Thread Cert.KernelIdeal.nD Cert.KernelIdeal.τ).loc Cert.KernelIdeal.main_arg10))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run Cert.KernelIdeal.defs _ _).mono
    (fun _ h c => ⟨(h c).1.trans (Cert.KernelIdeal.KValue.result_eq m ρ c), (h c).2⟩)
    (Cert.KernelIdeal.Named.run_named (F := Ideal) m ρ)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the whole computation of the (agreeing) argument arrays. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [a0, a1, a2, a3, a4, a5, a6, a7, a8, a9, a10]
  exact Cert.ReferenceIdeal.RefValue.result_eq _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
